-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x2 : Shape := ⟨2, ![1000000, 2]⟩
abbrev S1000000 : Shape := ⟨1, ![1000000]⟩
abbrev S2x128 : Shape := ⟨2, ![2, 128]⟩
abbrev S128 : Shape := ⟨1, ![128]⟩
abbrev S_ : Shape := ⟨0, ![]⟩

class Facts : Prop where
  bcast_S_S1000000x2 : S_.BroadcastsInDim S1000000x2 (![] : Fin 0 → Fin S1000000x2.rank)
  reducesTo_S1000000x2_S_d0_1 : S1000000x2.ReducesTo [0, 1] S_
  h_S_ : 0 < S_.numel
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S2x128 .f32) (main_arg7 : FVec F S128 .f32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S2x128 .f32 := Host.absf main_arg6
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S1000000x2 .f32) (main_arg1 : IVec S1000000 32) (main_arg2 : FVec F S2x128 .f32) (main_arg3 : FVec F S128 .f32) (main_arg4 : FVec F S2x128 .f32) (main_arg5 : FVec F S128 .f32) (main_arg6 : FVec F S2x128 .f32) (main_arg7 : FVec F S128 .f32) : IVec S_ 1 :=
  let main_v0 : FVec F S1000000x2 .f32 := Host.absf main_arg0
  let main_cst : FVec F S_ .f32 := constant S_ .f32 0x7F800000#32
  let main_v1 : FVec F S1000000x2 .f32 := broadcastInDim S1000000x2 ![] bcast_S_S1000000x2 main_cst
  let main_v2 : IVec S1000000x2 1 := cmpf .olt main_v0 main_v1
  let main_c : IVec S_ 1 := constantI S_ 1 1#1
  let main_v3 : IVec S_ 1 := (fun x v => Host.reduce IntOp.andi x v reducesTo_S1000000x2_S_d0_1 h_S_) main_v2 main_c
  let main_v4 : FVec F S2x128 .f32 := Host.absf main_arg2
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2x128 .f32 := Host.absf main_arg4
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg5 main_arg6 main_arg7 main_v13 main_v16
-- ==== Kernel.lean ====
abbrev S1000000x2 : Shape := ⟨2, ![1000000, 2]⟩
abbrev S1000000 : Shape := ⟨1, ![1000000]⟩
abbrev S2x128 : Shape := ⟨2, ![2, 128]⟩
abbrev S128 : Shape := ⟨1, ![128]⟩
abbrev S1000000x1 : Shape := ⟨2, ![1000000, 1]⟩
abbrev S_ : Shape := ⟨0, ![]⟩
abbrev S1007616 : Shape := ⟨1, ![1007616]⟩
abbrev S1000000x128 : Shape := ⟨2, ![1000000, 128]⟩
abbrev S8192 : Shape := ⟨1, ![8192]⟩
abbrev S8192x128 : Shape := ⟨2, ![8192, 128]⟩
abbrev S8192x1 : Shape := ⟨2, ![8192, 1]⟩
abbrev S1x128 : Shape := ⟨2, ![1, 128]⟩

abbrev nBuf : Space → Nat
  | .hbm => 22
  | .vmem => 14
  | .smem => 0
  | _ => 0

abbrev bufTy : (tb : Table) → Fin (tcTables nBuf tb) → BufTy
  | .hbm, ⟨0, _⟩ => ⟨S1000000x2, .f32⟩
  | .hbm, ⟨1, _⟩ => ⟨S1000000, .i32⟩
  | .hbm, ⟨2, _⟩ => ⟨S2x128, .f32⟩
  | .hbm, ⟨3, _⟩ => ⟨S128, .f32⟩
  | .hbm, ⟨4, _⟩ => ⟨S2x128, .f32⟩
  | .hbm, ⟨5, _⟩ => ⟨S128, .f32⟩
  | .hbm, ⟨6, _⟩ => ⟨S2x128, .f32⟩
  | .hbm, ⟨7, _⟩ => ⟨S128, .f32⟩
  | .hbm, ⟨8, _⟩ => ⟨S1000000x1, .f32⟩
  | .hbm, ⟨9, _⟩ => ⟨S1000000, .f32⟩
  | .hbm, ⟨10, _⟩ => ⟨S1000000x1, .f32⟩
  | .hbm, ⟨11, _⟩ => ⟨S1000000, .f32⟩
  | .hbm, ⟨12, _⟩ => ⟨S_, .i32⟩
  | .hbm, ⟨13, _⟩ => ⟨S_, .f32⟩
  | .hbm, ⟨14, _⟩ => ⟨S1007616, .f32⟩
  | .hbm, ⟨15, _⟩ => ⟨S_, .i32⟩
  | .hbm, ⟨16, _⟩ => ⟨S_, .f32⟩
  | .hbm, ⟨17, _⟩ => ⟨S1007616, .f32⟩
  | .hbm, ⟨18, _⟩ => ⟨S_, .i32⟩
  | .hbm, ⟨19, _⟩ => ⟨S_, .i32⟩
  | .hbm, ⟨20, _⟩ => ⟨S1007616, .i32⟩
  | .hbm, ⟨21, _⟩ => ⟨S1000000x128, .f32⟩
  | .local _ .vmem, ⟨0, _⟩ => ⟨S8192, .f32⟩
  | .local _ .vmem, ⟨1, _⟩ => ⟨S8192, .f32⟩
  | .local _ .vmem, ⟨2, _⟩ => ⟨S8192, .f32⟩
  | .local _ .vmem, ⟨3, _⟩ => ⟨S8192, .f32⟩
  | .local _ .vmem, ⟨4, _⟩ => ⟨S8192, .i32⟩
  | .local _ .vmem, ⟨5, _⟩ => ⟨S8192, .i32⟩
  | .local _ .vmem, ⟨6, _⟩ => ⟨S2x128, .f32⟩
  | .local _ .vmem, ⟨7, _⟩ => ⟨S128, .f32⟩
  | .local _ .vmem, ⟨8, _⟩ => ⟨S2x128, .f32⟩
  | .local _ .vmem, ⟨9, _⟩ => ⟨S128, .f32⟩
  | .local _ .vmem, ⟨10, _⟩ => ⟨S2x128, .f32⟩
  | .local _ .vmem, ⟨11, _⟩ => ⟨S128, .f32⟩
  | .local _ .vmem, ⟨12, _⟩ => ⟨S8192x128, .f32⟩
  | .local _ .vmem, ⟨13, _⟩ => ⟨S8192x128, .f32⟩
  | _, _ => ⟨S1000000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_c_0 : Ref sig .tc := ⟨.hbm, 15, rfl⟩
abbrev main_call1_v0 : Ref sig .tc := ⟨.hbm, 16, rfl⟩
abbrev main_v5 : Ref sig .tc := ⟨.hbm, 17, rfl⟩
abbrev main_c_1 : Ref sig .tc := ⟨.hbm, 18, rfl⟩
abbrev main_call2_v0 : Ref sig .tc := ⟨.hbm, 19, rfl⟩
abbrev main_v6 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![123], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S1000000x2_S1000000x1_0_0 : S1000000x2.Slices ![0, 0] S1000000x1
  shapeCasts_S1000000x1_S1000000 : S1000000x1.ShapeCasts S1000000
  slices_S1000000x2_S1000000x1_0_1 : S1000000x2.Slices ![0, 1] S1000000x1
  pads_S1000000_S1007616_076160 : S1000000.Pads (![0] : Fin 1 → Nat) ![7616] ![0] S1007616
  h_S_ : 0 < S_.numel
  inb_S8192_S8192_0 : ∀ a, (![0] : Fin 1 → Nat) a + S8192.size a ≤ S8192.size a
  h_S8192 : 0 < S8192.numel
  shapeCasts_S8192_S8192 : S8192.ShapeCasts S8192
  shapeCasts_S8192_S8192x1 : S8192.ShapeCasts S8192x1
  inb_S2x128_S2x128_0_0 : ∀ a, (![0, 0] : Fin 2 → Nat) a + S2x128.size a ≤ S2x128.size a
  h_S2x128 : 0 < S2x128.numel
  inb_S128_S128_0 : ∀ a, (![0] : Fin 1 → Nat) a + S128.size a ≤ S128.size a
  h_S128 : 0 < S128.numel
  shapeCasts_S128_S1x128 : S128.ShapeCasts S1x128
  slices_S2x128_o0_0_S1x128 : S2x128.Slices ![0, 0] S1x128
  broadcasts_S8192x1_S8192x128 : S8192x1.Broadcasts S8192x128
  broadcasts_S1x128_S8192x128 : S1x128.Broadcasts S8192x128
  slices_S2x128_o1_0_S1x128 : S2x128.Slices ![1, 0] S1x128
  shapeCasts_S8192x1_S8192x1 : S8192x1.ShapeCasts S8192x1
  inb_S8192x128_S8192x128_0_0 : ∀ a, (![0, 0] : Fin 2 → Nat) a + S8192x128.size a ≤ S8192x128.size a
  h_S8192x128 : 0 < S8192x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192.size a ≤ S1007616.size a
  hwx0_0 : ∀ i : grid0.Coords, EltTy.bits .f32 = 32 ∨ (Rect.block (s := S1007616) S8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S1007616.size a
  hwx0_1 : ∀ i : grid0.Coords, EltTy.bits .f32 = 32 ∨ (Rect.block (s := S1007616) S8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S1007616.size a
  hwx0_2 : ∀ i : grid0.Coords, EltTy.bits .i32 = 32 ∨ (Rect.block (s := S1007616) S8192.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x128.size a ≤ S2x128.size a
  hwx0_3 : ∀ i : grid0.Coords, EltTy.bits .f32 = 32 ∨ (Rect.block (s := S2x128) S2x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x128.size a ≤ S2x128.size a
  hwx0_5 : ∀ i : grid0.Coords, EltTy.bits .f32 = 32 ∨ (Rect.block (s := S2x128) S2x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x128.size a ≤ S2x128.size a
  hwx0_7 : ∀ i : grid0.Coords, EltTy.bits .f32 = 32 ∨ (Rect.block (s := S2x128) S2x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hstart0_9 : ∀ (i : grid0.Coords) a, cc0_transform_9 i a * S8192x128.size a < S1000000x128.size a
  hwx0_9 : ∀ i : grid0.Coords, EltTy.bits .f32 = 32 ∨ (Rect.unit (s := S1000000x128) (fun a => cc0_transform_9 i a * S8192x128.size a) (fun a => (Pipeline.Clip.of (cc0_transform_9 i a) (S8192x128.size a) (S1000000x128.size a)).extent (S8192x128.size a)) fun a => Pipeline.Clip.inb (Pipeline.Clip.ok_of (hstart0_9 i a))).WholeWords (EltTy.packing .f32)
  hwxs0_9 : ∀ i : grid0.Coords, EltTy.bits .f32 = 32 ∨ (Rect.unit (s := S8192x128) (fun _ => 0) (fun a => (Pipeline.Clip.of (cc0_transform_9 i a) (S8192x128.size a) (S1000000x128.size a)).extent (S8192x128.size a)) fun a => (Nat.zero_add _).trans_le (Pipeline.Clip.extent_le (Pipeline.Clip.ok_of (hstart0_9 i a)))).WholeWords (EltTy.packing .f32)

variable [Facts₀]

abbrev win0_0 : Pipeline.Window sig grid0 :=
  Pipeline.Window.ofSpec (Memref.whole main_v4) S8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S2x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S2x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpecClip (Memref.whole main_v7) S8192x128.size cc0_transform_9 reads0_9 true false 2 stage0_9 sem0_9
    hrank0 hreads0_9 hstart0_9 nbuf0_9 (Memref.isWhole_whole _) hwx0_9 hwxs0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1000000x2 : Shape := ⟨2, ![1000000, 2]⟩
abbrev S1000000 : Shape := ⟨1, ![1000000]⟩
abbrev S2x128 : Shape := ⟨2, ![2, 128]⟩
abbrev S128 : Shape := ⟨1, ![128]⟩
abbrev S1000000x128 : Shape := ⟨2, ![1000000, 128]⟩
abbrev S1x128 : Shape := ⟨2, ![1, 128]⟩
abbrev S1000000x1 : Shape := ⟨2, ![1000000, 1]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1000000x2, .f32⟩
  | .hbm, ⟨1, _⟩ => ⟨S1000000, .i32⟩
  | .hbm, ⟨2, _⟩ => ⟨S2x128, .f32⟩
  | .hbm, ⟨3, _⟩ => ⟨S128, .f32⟩
  | .hbm, ⟨4, _⟩ => ⟨S2x128, .f32⟩
  | .hbm, ⟨5, _⟩ => ⟨S128, .f32⟩
  | .hbm, ⟨6, _⟩ => ⟨S2x128, .f32⟩
  | .hbm, ⟨7, _⟩ => ⟨S128, .f32⟩
  | .hbm, ⟨8, _⟩ => ⟨S1000000x128, .f32⟩
  | .hbm, ⟨9, _⟩ => ⟨S1x128, .f32⟩
  | .hbm, ⟨10, _⟩ => ⟨S1000000x128, .f32⟩
  | .hbm, ⟨11, _⟩ => ⟨S1000000x128, .f32⟩
  | .hbm, ⟨12, _⟩ => ⟨S1000000x128, .f32⟩
  | .hbm, ⟨13, _⟩ => ⟨S1000000x128, .f32⟩
  | .hbm, ⟨14, _⟩ => ⟨S1x128, .f32⟩
  | .hbm, ⟨15, _⟩ => ⟨S1000000x128, .f32⟩
  | .hbm, ⟨16, _⟩ => ⟨S1000000x128, .f32⟩
  | .hbm, ⟨17, _⟩ => ⟨S1000000x128, .f32⟩
  | .hbm, ⟨18, _⟩ => ⟨S1000000x128, .f32⟩
  | .hbm, ⟨19, _⟩ => ⟨S1x128, .f32⟩
  | .hbm, ⟨20, _⟩ => ⟨S1000000x128, .f32⟩
  | .hbm, ⟨21, _⟩ => ⟨S1000000x128, .f32⟩
  | .hbm, ⟨22, _⟩ => ⟨S1000000x128, .f32⟩
  | .hbm, ⟨23, _⟩ => ⟨S1000000x1, .i32⟩
  | .hbm, ⟨24, _⟩ => ⟨S_, .i32⟩
  | .hbm, ⟨25, _⟩ => ⟨S1000000x1, .i32⟩
  | .hbm, ⟨26, _⟩ => ⟨S1000000x1, .i1⟩
  | .hbm, ⟨27, _⟩ => ⟨S_, .i32⟩
  | .hbm, ⟨28, _⟩ => ⟨S1000000x1, .i32⟩
  | .hbm, ⟨29, _⟩ => ⟨S1000000x1, .i1⟩
  | .hbm, ⟨30, _⟩ => ⟨S_, .i32⟩
  | .hbm, ⟨31, _⟩ => ⟨S1000000x1, .i32⟩
  | .hbm, ⟨32, _⟩ => ⟨S1000000x1, .i1⟩
  | .hbm, ⟨33, _⟩ => ⟨S_, .f32⟩
  | .hbm, ⟨34, _⟩ => ⟨S1000000x128, .i1⟩
  | .hbm, ⟨35, _⟩ => ⟨S1000000x128, .f32⟩
  | .hbm, ⟨36, _⟩ => ⟨S1000000x128, .f32⟩
  | .hbm, ⟨37, _⟩ => ⟨S1000000x128, .i1⟩
  | .hbm, ⟨38, _⟩ => ⟨S1000000x128, .f32⟩
  | .hbm, ⟨39, _⟩ => ⟨S1000000x128, .i1⟩
  | .hbm, ⟨40, _⟩ => ⟨S1000000x128, .f32⟩
  | _, _ => ⟨S1000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_0 : Ref sig .tc := ⟨.hbm, 27, rfl⟩
abbrev main_v18 : Ref sig .tc := ⟨.hbm, 28, rfl⟩
abbrev main_v19 : Ref sig .tc := ⟨.hbm, 29, rfl⟩
abbrev main_c_1 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_call0_v0 : Ref sig .tc := ⟨.hbm, 34, rfl⟩
abbrev main_call0_v1 : Ref sig .tc := ⟨.hbm, 35, rfl⟩
abbrev main_v22 : Ref sig .tc := ⟨.hbm, 36, rfl⟩
abbrev main_call1_v0 : Ref sig .tc := ⟨.hbm, 37, rfl⟩
abbrev main_v23 : Ref sig .tc := ⟨.hbm, 38, rfl⟩
abbrev main_call2_v0 : Ref sig .tc := ⟨.hbm, 39, rfl⟩
abbrev main_v24 : Ref sig .tc := ⟨.hbm, 40, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1000000x1_S1000000x128_0_1 : S1000000x1.BroadcastsInDim S1000000x128 (![0, 1] : Fin 2 → Fin S1000000x128.rank)
  bcast_S_S1000000x128 : S_.BroadcastsInDim S1000000x128 (![] : Fin 0 → Fin S1000000x128.rank)
  dot_S1000000x2_S2x128_S1000000x128_1_0_0_1_n_n_wf : DotDims.WF S1000000x2 S2x128 S1000000x128 [1] [0] [0] [1] [] []

variable [Facts₀]

def dot_S1000000x2_S2x128_S1000000x128_1_0_0_1_n_n : DotDims S1000000x2 S2x128 S1000000x128 where
  lhsContracting := [1]
  rhsContracting := [0]
  lhsNonContracting := [0]
  rhsNonContracting := [1]
  lhsBatch := []
  rhsBatch := []
  wf := dot_S1000000x2_S2x128_S1000000x128_1_0_0_1_n_n_wf

class Facts : Prop extends Facts₀ where

variable [Facts]
-- ==== Proof.EntryContents.lean ====
/-
  What the kernel's three streamed inputs hold when the pallas_call is entered. The host code before the call cuts the
  [1000000, 2] feature matrix into its two columns, flattens each to a vector, and extends each — and the bus types —
  with zeros to 1007616 = 123 · 8192 entries, so that 123 blocks of 8192 tile them exactly. At an entry below 1000000
  the extension changes nothing: the extended first column holds the feature matrix's entry (r, 0), the extended
  second column its entry (r, 1), the extended types the type of bus r. (The 7616 appended zeros feed rows of the last
  block that lie past the result's end and are never written back; nothing is said of them here.)
-/
import proofs.«169179_j20873541059064_2_alg».proof.Proof.Gen.KernelIdeal.Frame
import Idealize.ShloMosaic.Lib.StableHlo.Run
import Idealize.ShloMosaic.Lib.KernelVsHost
import Idealize.ShloMosaic.Lib.ValueIdx

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- A column of the feature matrix, flattened and extended by `v`, read at an entry `k` below 1000000 is the
    matrix's entry in row `k` of that column. -/
theorem extended_column_apply {α : Type} (x : S1000000x2.Idx → α) (v : S_.Idx → α) (col : Fin 2)
    (off : Fin 2 → Nat) (hoff0 : off 0 = 0) (hoff1 : off 1 = col.val) (hs : S1000000x2.Slices off S1000000x1)
    (k : S1007616.Idx) (r : Fin 1000000) (hr : (k 0).val = r.val) :
    pad S1007616 ![0] ![7616] ![0] (shapeCast S1000000 (extractStridedSlice S1000000x1 off x hs) shapeCasts_S1000000x1_S1000000)
      v pads_S1000000_S1007616_076160 h_S_ k = x (ix2 r col) := by
  refine (pad_apply_of_inside _ _ _ _ _ pads_S1000000_S1007616_076160 h_S_ k (ix1 r) (fun a => ?_)).trans ?_
  · match a with
    | ⟨0, _⟩ => show (k 0).val = 0 + r.val * (0 + 1); omega
  refine (shapeCast_apply _ shapeCasts_S1000000x1_S1000000 (ix1 r) (ix2 r (0 : Fin 1)) ?_).trans ?_
  · rw [Shape.rowMajor_val_one, Shape.rowMajor_val_two]; show r.val * 1 + 0 = r.val; omega
  refine extractStridedSlice_apply off x hs (ix2 r (0 : Fin 1)) (ix2 r col) (fun a => ?_)
  match a with
  | ⟨0, _⟩ => show r.val = off 0 + r.val; omega
  | ⟨1, _⟩ => show col.val = off 1 + 0; omega

/-- The bus types extended by `v`, read at an entry below 1000000, are the bus types there. -/
theorem extended_types_apply {α : Type} (x : S1000000.Idx → α) (v : S_.Idx → α)
    (k : S1007616.Idx) (r : Fin 1000000) (hr : (k 0).val = r.val) :
    pad S1007616 ![0] ![7616] ![0] x v pads_S1000000_S1007616_076160 h_S_ k = x (ix1 r) := by
  refine pad_apply_of_inside _ _ _ _ _ pads_S1000000_S1007616_076160 h_S_ k (ix1 r) (fun a => ?_)
  match a with
  | ⟨0, _⟩ => show (k 0).val = 0 + r.val * (0 + 1); omega

/-- The first streamed input at entry: the feature matrix's column 0, flattened, extended with zeros. -/
theorem first_column (c : Dev nD) :
    (V m c main_v4 : S1007616.Idx → EReal)
      = pad S1007616 ![0] ![7616] ![0] (shapeCast S1000000 (extractStridedSlice S1000000x1 ![0, 0] (m ((c : Thread nD τ).loc main_arg0)) slices_S1000000x2_S1000000x1_0_0) shapeCasts_S1000000x1_S1000000)
          (sitofp (F := Ideal) .f32 (constantI S_ 32 0#32)) pads_S1000000_S1007616_076160 h_S_ := by
  dsimp only [Gen.V]
  simp only [Gen.hostOps0, Gen.hostOps0_1, Gen.hostOps0_2, Gen.hostOps0_3, Gen.hostOps0_4, Gen.hostOps0_5, List.flatten_cons, List.flatten_nil, List.append_nil, List.cons_append, List.nil_append]
  after_results
  rfl

/-- The second streamed input at entry: the feature matrix's column 1, flattened, extended with zeros. -/
theorem second_column (c : Dev nD) :
    (V m c main_v5 : S1007616.Idx → EReal)
      = pad S1007616 ![0] ![7616] ![0] (shapeCast S1000000 (extractStridedSlice S1000000x1 ![0, 1] (m ((c : Thread nD τ).loc main_arg0)) slices_S1000000x2_S1000000x1_0_1) shapeCasts_S1000000x1_S1000000)
          (sitofp (F := Ideal) .f32 (constantI S_ 32 0#32)) pads_S1000000_S1007616_076160 h_S_ := by
  dsimp only [Gen.V]
  simp only [Gen.hostOps0, Gen.hostOps0_1, Gen.hostOps0_2, Gen.hostOps0_3, Gen.hostOps0_4, Gen.hostOps0_5, List.flatten_cons, List.flatten_nil, List.append_nil, List.cons_append, List.nil_append]
  after_results
  rfl

/-- The third streamed input at entry: the bus types extended with zeros. -/
theorem types (c : Dev nD) :
    (V m c main_v6 : S1007616.Idx → BitVec 32)
      = pad S1007616 ![0] ![7616] ![0] (m ((c : Thread nD τ).loc main_arg1)) (id (constantI S_ 32 0#32)) pads_S1000000_S1007616_076160 h_S_ := by
  dsimp only [Gen.V]
  simp only [Gen.hostOps0, Gen.hostOps0_1, Gen.hostOps0_2, Gen.hostOps0_3, Gen.hostOps0_4, Gen.hostOps0_5, List.flatten_cons, List.flatten_nil, List.append_nil, List.cons_append, List.nil_append]
  after_results
  rfl

/-- At an entry `k` below 1000000 the first streamed input holds the feature matrix's entry (k, 0). -/
theorem first_column_apply (c : Dev nD) (k : S1007616.Idx) (r : Fin 1000000) (hr : (k 0).val = r.val) :
    (V m c main_v4 : S1007616.Idx → EReal) k = (m ((c : Thread nD τ).loc main_arg0) : S1000000x2.Idx → EReal) (ix2 r (0 : Fin 2)) :=
  (congrFun (first_column m c) k).trans (extended_column_apply _ _ (0 : Fin 2) ![0, 0] rfl rfl _ k r hr)

/-- At an entry `k` below 1000000 the second streamed input holds the feature matrix's entry (k, 1). -/
theorem second_column_apply (c : Dev nD) (k : S1007616.Idx) (r : Fin 1000000) (hr : (k 0).val = r.val) :
    (V m c main_v5 : S1007616.Idx → EReal) k = (m ((c : Thread nD τ).loc main_arg0) : S1000000x2.Idx → EReal) (ix2 r (1 : Fin 2)) :=
  (congrFun (second_column m c) k).trans (extended_column_apply _ _ (1 : Fin 2) ![0, 1] rfl rfl _ k r hr)

/-- At an entry `k` below 1000000 the third streamed input holds the type of bus `k`. -/
theorem types_apply (c : Dev nD) (k : S1007616.Idx) (r : Fin 1000000) (hr : (k 0).val = r.val) :
    (V m c main_v6 : S1007616.Idx → BitVec 32) k = (m ((c : Thread nD τ).loc main_arg1) : S1000000.Idx → BitVec 32) (ix1 r) :=
  (congrFun (types m c) k).trans (extended_types_apply _ _ k r hr)

end Cert.KernelIdeal.Entry

end
-- ==== Proof.BlockReads.lean ====
/-
  What the kernel body loads at grid point `t`. The grid has 123 points. The three streamed inputs (the two
  extended feature columns and the extended bus types, 1007616 entries each) move in blocks of 8192: point `t` sees
  entries t·8192 … t·8192 + 8191, so entry `y` of its block is entry t·8192 + y of the vector, which — when that is
  below 1000000 — is the feature matrix's entry (t·8192 + y, column) or the bus's type. The six resident inputs (three
  [2, 128] weight matrices and three [128] biases) are each ONE block, the whole array, at every point.
-/
import proofs.«169179_j20873541059064_2_alg».proof.Proof.EntryContents
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The printed index maps, decided over the 123 grid points: the streamed windows and the result's rows are at block
    `t`; every resident window, and the result's channels, at block 0. -/
theorem index_maps : ∀ t : Fin cfg0.N,
    win0_0.index t (0 : Fin 1) = t.val ∧ win0_1.index t (0 : Fin 1) = t.val ∧ win0_2.index t (0 : Fin 1) = t.val
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 2) = 0 ∧ win0_7.index t (1 : Fin 2) = 0 ∧ win0_8.index t (0 : Fin 1) = 0
    ∧ win0_9.index t (0 : Fin 2) = t.val ∧ win0_9.index t (1 : Fin 2) = 0 :=
  (by decide +kernel : ∀ t : Fin grid0.N, _)

/-- Entry `y` of the first feature column's block at point `t` is the feature matrix's entry (t·8192 + y, 0). -/
theorem feat0_read (c : Dev nD) (t : Fin cfg0.N) (y : S8192.Idx) (r : Fin 1000000) (hr : t.val * 8192 + (y 0).val = r.val) :
    iblk m c 0 t y = (m ((c : Thread nD τ).loc main_arg0) : S1000000x2.Idx → EReal) (ix2 r (0 : Fin 2)) := by
  show (V m c main_v4 : S1007616.Idx → EReal) (((cfg0.win 0).blk t).view.emb y) = _
  refine Entry.first_column_apply m c _ r ?_
  show win0_0.index t (0 : Fin 1) * 8192 + 1 * (y 0).val = r.val
  rw [(index_maps t).1]; omega

/-- Entry `y` of the second feature column's block at point `t` is the feature matrix's entry (t·8192 + y, 1). -/
theorem feat1_read (c : Dev nD) (t : Fin cfg0.N) (y : S8192.Idx) (r : Fin 1000000) (hr : t.val * 8192 + (y 0).val = r.val) :
    iblk m c 1 t y = (m ((c : Thread nD τ).loc main_arg0) : S1000000x2.Idx → EReal) (ix2 r (1 : Fin 2)) := by
  show (V m c main_v5 : S1007616.Idx → EReal) (((cfg0.win 1).blk t).view.emb y) = _
  refine Entry.second_column_apply m c _ r ?_
  show win0_1.index t (0 : Fin 1) * 8192 + 1 * (y 0).val = r.val
  rw [(index_maps t).2.1]; omega

/-- Entry `y` of the bus types' block at point `t` is the type of bus t·8192 + y. -/
theorem types_read (c : Dev nD) (t : Fin cfg0.N) (y : S8192.Idx) (r : Fin 1000000) (hr : t.val * 8192 + (y 0).val = r.val) :
    iblk m c 2 t y = (m ((c : Thread nD τ).loc main_arg1) : S1000000.Idx → BitVec 32) (ix1 r) := by
  show (V m c main_v6 : S1007616.Idx → BitVec 32) (((cfg0.win 2).blk t).view.emb y) = _
  refine Entry.types_apply m c _ r ?_
  show win0_2.index t (0 : Fin 1) * 8192 + 1 * (y 0).val = r.val
  rw [(index_maps t).2.2.1]; omega

end Cert.KernelIdeal.Blocks

end
-- ==== Proof.BusEmbedSpec.lean ====
/-
  The bus embedding, as mathematics. Every row `r` of a network's buses carries two real features `f0 r, f1 r`
  and an integer type `bt r`. Each of the three bus types (1, 2, 3) has its own affine map from the two features
  to 128 channels: a 2×128 weight matrix `W` and a 128-vector `b`, giving `f0·W[0,q] + f1·W[1,q] + b[q]` at
  channel `q`. The embedding of row `r` at channel `q` is `tanh` of the affine map of the row's own type, and
  `0` when the type is none of 1, 2, 3.

  Two arrangements compute it. One routes first and squashes once: `tanh (select …  (select … (select … 0)))`.
  The other squashes each type's affine map and routes afterwards: `select … (tanh …) (select … (tanh …) (select …
  (tanh …) 0))`. They agree because `tanh` commutes with a choice between two values and `tanh 0 = 0`; nothing
  about the sizes of the entries is needed, so the law holds on all of the extended reals.

  Here: the value at one element as a function `cell` of twelve scalars, both arrangements of it, and `embed`, the
  whole [1000000, 128] result as one function of the eight argument arrays, index by index.
-/
import Idealize.ShloMosaic.PureOps.Ideal
import Idealize.ShloMosaic.PureOps.Ideal.Laws
import Idealize.ShloMosaic.Lib.ValueIdx

noncomputable section

namespace Cert.BusEmbed

open Idealize.ShloMosaic Idealize.ShloMosaic.ValueIdx

/-- The features, one row per bus: [1000000, 2]. -/
abbrev Feat : Shape := ⟨2, ![1000000, 2]⟩
/-- One entry per bus: [1000000]. -/
abbrev Rows : Shape := ⟨1, ![1000000]⟩
/-- A bus type's weights: [2, 128]. -/
abbrev Wt : Shape := ⟨2, ![2, 128]⟩
/-- A bus type's bias: [128]. -/
abbrev Bias : Shape := ⟨1, ![128]⟩
/-- The embedding: [1000000, 128]. -/
abbrev Out : Shape := ⟨2, ![1000000, 128]⟩

/-- One bus type's affine map of the two features at one channel. -/
def affine (f0 f1 w0 w1 b : EReal) : EReal := f0 * w0 + f1 * w1 + b

/-- The routed pre-activation: the affine map of the row's own type, zero for a type that is none of 1, 2, 3. -/
def routed (bt : BitVec 32) (f0 f1 ws0 ws1 bs wg0 wg1 bg wl0 wl1 bl : EReal) : EReal :=
  Scalar.select (IntOp.cmpi .eq bt 1#32) (affine f0 f1 ws0 ws1 bs)
    (Scalar.select (IntOp.cmpi .eq bt 2#32) (affine f0 f1 wg0 wg1 bg)
      (Scalar.select (IntOp.cmpi .eq bt 3#32) (affine f0 f1 wl0 wl1 bl) 0))

/-- The embedding at one element: `tanh` of the routed pre-activation. -/
def cell (bt : BitVec 32) (f0 f1 ws0 ws1 bs wg0 wg1 bg wl0 wl1 bl : EReal) : EReal :=
  Ideal.tanh (routed bt f0 f1 ws0 ws1 bs wg0 wg1 bg wl0 wl1 bl)

/-- A function of a choice between two values is the choice between its two values. -/
theorem apply_select {α β : Type} (g : α → β) (c : BitVec 1) (a b : α) :
    g (Scalar.select c a b) = Scalar.select c (g a) (g b) := by
  unfold Scalar.select; split <;> rfl

/-- `tanh 0 = 0` on the extended reals. -/
theorem tanh_zero : Ideal.tanh 0 = 0 := by
  show Ideal.tanh ((0 : ℝ) : EReal) = 0
  rw [Ideal.tanh_coe, Real.tanh_zero]; rfl

/-- ROUTE, THEN SQUASH: `tanh` of the three nested choices, the affine maps spelled with the float operations at
    the ideal values and the fall-through the zero word. -/
theorem route_then_squash (bt : BitVec 32) (f0 f1 ws0 ws1 bs wg0 wg1 bg wl0 wl1 bl : EReal) :
    FloatOps.tanh (F := Ideal) (φ := .f32) (Scalar.select (IntOp.cmpi .eq bt 1#32)
      (FloatOps.addf (F := Ideal) (φ := .f32) (FloatOps.addf (F := Ideal) (φ := .f32) (FloatOps.mulf (F := Ideal) (φ := .f32) f0 ws0) (FloatOps.mulf (F := Ideal) (φ := .f32) f1 ws1)) bs)
      (Scalar.select (IntOp.cmpi .eq bt 2#32)
        (FloatOps.addf (F := Ideal) (φ := .f32) (FloatOps.addf (F := Ideal) (φ := .f32) (FloatOps.mulf (F := Ideal) (φ := .f32) f0 wg0) (FloatOps.mulf (F := Ideal) (φ := .f32) f1 wg1)) bg)
        (Scalar.select (IntOp.cmpi .eq bt 3#32)
          (FloatOps.addf (F := Ideal) (φ := .f32) (FloatOps.addf (F := Ideal) (φ := .f32) (FloatOps.mulf (F := Ideal) (φ := .f32) f0 wl0) (FloatOps.mulf (F := Ideal) (φ := .f32) f1 wl1)) bl)
          (Scalar.ofBits (F := Ideal) .f32 0x00000000#32))))
      = cell bt f0 f1 ws0 ws1 bs wg0 wg1 bg wl0 wl1 bl := by
  show Ideal.tanh (Scalar.select (IntOp.cmpi .eq bt 1#32) (f0 * ws0 + f1 * ws1 + bs)
      (Scalar.select (IntOp.cmpi .eq bt 2#32) (f0 * wg0 + f1 * wg1 + bg)
        (Scalar.select (IntOp.cmpi .eq bt 3#32) (f0 * wl0 + f1 * wl1 + bl) (Ideal.ofBits .f32 0x00000000#32)))) = _
  rw [Ideal.ofBits_zero_f32]
  rfl

/-- SQUASH, THEN ROUTE: the three affine maps squashed one by one (each a sum over the two features, plus the bias),
    then chosen between, the fall-through the zero word. -/
theorem squash_then_route (bt : BitVec 32) (f : Fin 2 → EReal) (ws wg wl : Fin 2 → EReal) (bs bg bl : EReal) :
    Scalar.select (IntOp.cmpi .eq bt 1#32)
      (FloatOps.hostUnary (F := Ideal) (φ := .f32) .tanh (FloatOps.addf (F := Ideal) (φ := .f32) (∑ k : Fin 2, f k * ws k) bs))
      (Scalar.select (IntOp.cmpi .eq bt 2#32)
        (FloatOps.hostUnary (F := Ideal) (φ := .f32) .tanh (FloatOps.addf (F := Ideal) (φ := .f32) (∑ k : Fin 2, f k * wg k) bg))
        (Scalar.select (IntOp.cmpi .eq bt 3#32)
          (FloatOps.hostUnary (F := Ideal) (φ := .f32) .tanh (FloatOps.addf (F := Ideal) (φ := .f32) (∑ k : Fin 2, f k * wl k) bl))
          (FloatOps.ofBits (F := Ideal) .f32 0x00000000#32)))
      = cell bt (f 0) (f 1) (ws 0) (ws 1) bs (wg 0) (wg 1) bg (wl 0) (wl 1) bl := by
  show Scalar.select (IntOp.cmpi .eq bt 1#32) (Ideal.tanh ((∑ k : Fin 2, f k * ws k) + bs))
      (Scalar.select (IntOp.cmpi .eq bt 2#32) (Ideal.tanh ((∑ k : Fin 2, f k * wg k) + bg))
        (Scalar.select (IntOp.cmpi .eq bt 3#32) (Ideal.tanh ((∑ k : Fin 2, f k * wl k) + bl))
          (Ideal.ofBits .f32 0x00000000#32))) = _
  rw [Ideal.ofBits_zero_f32, Fin.sum_univ_two, Fin.sum_univ_two, Fin.sum_univ_two]
  unfold cell routed affine
  rw [apply_select Ideal.tanh, apply_select Ideal.tanh, apply_select Ideal.tanh, tanh_zero]

/-- THE EMBEDDING as one function of the eight argument arrays, at row `r` and channel `q`. -/
def embedAt (feat : FVec Ideal Feat .f32) (bt : IVec Rows 32)
    (Ws : FVec Ideal Wt .f32) (bs : FVec Ideal Bias .f32) (Wg : FVec Ideal Wt .f32) (bg : FVec Ideal Bias .f32)
    (Wl : FVec Ideal Wt .f32) (bl : FVec Ideal Bias .f32) (r : Fin 1000000) (q : Fin 128) : EReal :=
  cell (bt (ix1 r)) (feat (ix2 r (0 : Fin 2))) (feat (ix2 r (1 : Fin 2)))
    (Ws (ix2 (0 : Fin 2) q)) (Ws (ix2 (1 : Fin 2) q)) (bs (ix1 q))
    (Wg (ix2 (0 : Fin 2) q)) (Wg (ix2 (1 : Fin 2) q)) (bg (ix1 q))
    (Wl (ix2 (0 : Fin 2) q)) (Wl (ix2 (1 : Fin 2) q)) (bl (ix1 q))

/-- The whole [1000000, 128] embedding, index by index. -/
def embed (feat : FVec Ideal Feat .f32) (bt : IVec Rows 32)
    (Ws : FVec Ideal Wt .f32) (bs : FVec Ideal Bias .f32) (Wg : FVec Ideal Wt .f32) (bg : FVec Ideal Bias .f32)
    (Wl : FVec Ideal Wt .f32) (bl : FVec Ideal Bias .f32) : FVec Ideal Out .f32 :=
  fun i => embedAt feat bt Ws bs Wg bg Wl bl (i 0) (i 1)

end Cert.BusEmbed

end
-- ==== Proof.KernelValue.lean ====
/-
  The kernel's result array is the bus embedding. Grid point `t` computes rows t·8192 … t·8192 + 8191 of it, all 128
  channels: at row `y` of its block and channel `q` the body routes on the type of bus t·8192 + y among the three
  affine maps of that bus's two features and applies `tanh` once — the element function `cell` of the embedding
  at (t·8192 + y, q). What a point writes back is its block cut at the result's end: 122 whole blocks and, at the last
  point, the first 576 rows (122·8192 + 576 = 1000000). Every row `r` of the result lies in the block of point
  r / 8192, inside the cut, so the blocks written back cover the result, and after the run it is the embedding.
-/
import proofs.«169179_j20873541059064_2_alg».proof.Proof.Gen.KernelIdeal.Value
import proofs.«169179_j20873541059064_2_alg».proof.Proof.BlockReads
import proofs.«169179_j20873541059064_2_alg».proof.Proof.BusEmbedSpec

noncomputable section

namespace Cert.KernelIdeal.Embedding

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offset1 : (![0] : Fin 1 → Nat) = fun _ => 0 := funext fun a => by fin_cases a; rfl
theorem zero_offset2 : (![0, 0] : Fin 2 → Nat) = fun _ => 0 := funext fun a => by fin_cases a <;> rfl

/-- The embedding of the argument arrays as core `c` holds them at launch. -/
abbrev result (c : Dev nD) : FVec Ideal S1000000x128 .f32 :=
  Cert.BusEmbed.embed (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))

/-! ## The resident inputs: one block, the whole array -/

/-- A [2, 128] resident window's block at any point, read at (k, q), is its array there: the first bus type's weights. -/
theorem weights1_read (c : Dev nD) (t : Fin cfg0.N) (y : S2x128.Idx) (k : Fin 2) (q : Fin 128)
    (h0 : (y 0).val = k.val) (h1 : (y 1).val = q.val) :
    iblk m c 3 t y = (m ((c : Thread nD τ).loc main_arg2) : S2x128.Idx → EReal) (ix2 k q) := by
  show (V m c main_arg2 : S2x128.Idx → EReal) (((cfg0.win 3).blk t).view.emb y) = _
  refine (congrFun (V_main_arg2 m c) _).trans ?_
  congr 1; funext a; apply Fin.ext
  obtain ⟨-, -, -, e0, e1, -⟩ := Blocks.index_maps t
  match a with
  | ⟨0, _⟩ => show win0_3.index t (0 : Fin 2) * 2 + 1 * (y 0).val = k.val; omega
  | ⟨1, _⟩ => show win0_3.index t (1 : Fin 2) * 128 + 1 * (y 1).val = q.val; omega

/-- The first bus type's bias: its block at any point, read at `q`, is the array there. -/
theorem bias1_read (c : Dev nD) (t : Fin cfg0.N) (y : S128.Idx) (q : Fin 128) (h0 : (y 0).val = q.val) :
    iblk m c 4 t y = (m ((c : Thread nD τ).loc main_arg3) : S128.Idx → EReal) (ix1 q) := by
  show (V m c main_arg3 : S128.Idx → EReal) (((cfg0.win 4).blk t).view.emb y) = _
  refine (congrFun (V_main_arg3 m c) _).trans ?_
  congr 1; funext a; apply Fin.ext
  obtain ⟨-, -, -, -, -, e0, -⟩ := Blocks.index_maps t
  match a with
  | ⟨0, _⟩ => show win0_4.index t (0 : Fin 1) * 128 + 1 * (y 0).val = q.val; omega

/-- The second bus type's weights. -/
theorem weights2_read (c : Dev nD) (t : Fin cfg0.N) (y : S2x128.Idx) (k : Fin 2) (q : Fin 128)
    (h0 : (y 0).val = k.val) (h1 : (y 1).val = q.val) :
    iblk m c 5 t y = (m ((c : Thread nD τ).loc main_arg4) : S2x128.Idx → EReal) (ix2 k q) := by
  show (V m c main_arg4 : S2x128.Idx → EReal) (((cfg0.win 5).blk t).view.emb y) = _
  refine (congrFun (V_main_arg4 m c) _).trans ?_
  congr 1; funext a; apply Fin.ext
  obtain ⟨-, -, -, -, -, -, e0, e1, -⟩ := Blocks.index_maps t
  match a with
  | ⟨0, _⟩ => show win0_5.index t (0 : Fin 2) * 2 + 1 * (y 0).val = k.val; omega
  | ⟨1, _⟩ => show win0_5.index t (1 : Fin 2) * 128 + 1 * (y 1).val = q.val; omega

/-- The second bus type's bias. -/
theorem bias2_read (c : Dev nD) (t : Fin cfg0.N) (y : S128.Idx) (q : Fin 128) (h0 : (y 0).val = q.val) :
    iblk m c 6 t y = (m ((c : Thread nD τ).loc main_arg5) : S128.Idx → EReal) (ix1 q) := by
  show (V m c main_arg5 : S128.Idx → EReal) (((cfg0.win 6).blk t).view.emb y) = _
  refine (congrFun (V_main_arg5 m c) _).trans ?_
  congr 1; funext a; apply Fin.ext
  obtain ⟨-, -, -, -, -, -, -, -, e0, -⟩ := Blocks.index_maps t
  match a with
  | ⟨0, _⟩ => show win0_6.index t (0 : Fin 1) * 128 + 1 * (y 0).val = q.val; omega

/-- The third bus type's weights. -/
theorem weights3_read (c : Dev nD) (t : Fin cfg0.N) (y : S2x128.Idx) (k : Fin 2) (q : Fin 128)
    (h0 : (y 0).val = k.val) (h1 : (y 1).val = q.val) :
    iblk m c 7 t y = (m ((c : Thread nD τ).loc main_arg6) : S2x128.Idx → EReal) (ix2 k q) := by
  show (V m c main_arg6 : S2x128.Idx → EReal) (((cfg0.win 7).blk t).view.emb y) = _
  refine (congrFun (V_main_arg6 m c) _).trans ?_
  congr 1; funext a; apply Fin.ext
  obtain ⟨-, -, -, -, -, -, -, -, -, e0, e1, -⟩ := Blocks.index_maps t
  match a with
  | ⟨0, _⟩ => show win0_7.index t (0 : Fin 2) * 2 + 1 * (y 0).val = k.val; omega
  | ⟨1, _⟩ => show win0_7.index t (1 : Fin 2) * 128 + 1 * (y 1).val = q.val; omega

/-- The third bus type's bias. -/
theorem bias3_read (c : Dev nD) (t : Fin cfg0.N) (y : S128.Idx) (q : Fin 128) (h0 : (y 0).val = q.val) :
    iblk m c 8 t y = (m ((c : Thread nD τ).loc main_arg7) : S128.Idx → EReal) (ix1 q) := by
  show (V m c main_arg7 : S128.Idx → EReal) (((cfg0.win 8).blk t).view.emb y) = _
  refine (congrFun (V_main_arg7 m c) _).trans ?_
  congr 1; funext a; apply Fin.ext
  obtain ⟨-, -, -, -, -, -, -, -, -, -, -, e0, -⟩ := Blocks.index_maps t
  match a with
  | ⟨0, _⟩ => show win0_8.index t (0 : Fin 1) * 128 + 1 * (y 0).val = q.val; omega

/-! ## What a point writes back -/

/-- WHAT POINT `t` WRITES BACK is block `t` of the embedding, cut at the result's end: at row `y` of the block and
    channel `q` the body's one store holds the element function of bus t·8192 + y's type and features and channel
    `q` of the three weight matrices and biases. -/
theorem written_back (c : Dev nD) (t : Fin cfg0.N) :
    (dats m 0 c).flushed 9 t = ((cfg0.win 9).blk t).view.read (Elt Ideal) (result m c) := by
  rw [Value.flushed9]
  unfold out0_9
  simp only [View.ld_unit_zero (S := S8192) zero_offset1, View.ld_unit_zero (S := S2x128) zero_offset2,
    View.ld_unit_zero (S := S128) zero_offset1]
  funext j
  show View.canon _ ((cfg0.win 9).xinj (grid0.coords t) j) = _
  rw [Value.canon9_eq]
  show _ = result m c (((cfg0.win 9).rect t).emb j)
  -- the element's row and channel in the result: block index × block size + the coordinate inside the block
  obtain ⟨r, q, hi⟩ : ∃ (r : Fin 1000000) (q : Fin 128), ((cfg0.win 9).rect t).emb j = ix2 r q := ⟨_, _, eq_ix2 _⟩
  obtain ⟨-, -, -, -, -, -, -, -, -, -, -, -, e0, e1⟩ := Blocks.index_maps t
  have g0 : ((((cfg0.win 9).rect t).emb j (0 : Fin 2)) : Nat) = win0_9.index t (0 : Fin 2) * 8192 + (j 0).val :=
    (cfg0.win 9).rect_emb_val t j (0 : Fin 2)
  have g1 : ((((cfg0.win 9).rect t).emb j (1 : Fin 2)) : Nat) = win0_9.index t (1 : Fin 2) * 128 + (j 1).val :=
    (cfg0.win 9).rect_emb_val t j (1 : Fin 2)
  have h0 : ((((cfg0.win 9).rect t).emb j (0 : Fin 2)) : Nat) = r.val := congrArg Fin.val (congrFun hi (0 : Fin 2))
  have h1 : ((((cfg0.win 9).rect t).emb j (1 : Fin 2)) : Nat) = q.val := congrArg Fin.val (congrFun hi (1 : Fin 2))
  have hrow : t.val * 8192 + (j 0).val = r.val := by omega
  have hcol : (j 1).val = q.val := by omega
  rw [hi]
  -- the body's value there is the element function of what it loaded
  refine (Cert.BusEmbed.route_then_squash
    (iblk m c 2 t (Value.ix9_0 ((cfg0.win 9).xinj (grid0.coords t) j)))
    (iblk m c 0 t (Value.ix9_1 ((cfg0.win 9).xinj (grid0.coords t) j)))
    (iblk m c 1 t (Value.ix9_3 ((cfg0.win 9).xinj (grid0.coords t) j)))
    (iblk m c 3 t (Value.ix9_2 ((cfg0.win 9).xinj (grid0.coords t) j)))
    (iblk m c 3 t (Value.ix9_4 ((cfg0.win 9).xinj (grid0.coords t) j)))
    (iblk m c 4 t (Value.ix9_5 ((cfg0.win 9).xinj (grid0.coords t) j)))
    (iblk m c 5 t (Value.ix9_8 ((cfg0.win 9).xinj (grid0.coords t) j)))
    (iblk m c 5 t (Value.ix9_10 ((cfg0.win 9).xinj (grid0.coords t) j)))
    (iblk m c 6 t (Value.ix9_11 ((cfg0.win 9).xinj (grid0.coords t) j)))
    (iblk m c 7 t (Value.ix9_14 ((cfg0.win 9).xinj (grid0.coords t) j)))
    (iblk m c 7 t (Value.ix9_16 ((cfg0.win 9).xinj (grid0.coords t) j)))
    (iblk m c 8 t (Value.ix9_17 ((cfg0.win 9).xinj (grid0.coords t) j)))).trans ?_
  -- and what it loaded are the arguments' entries of that row and channel
  rw [Blocks.types_read m c t _ r hrow, Blocks.feat0_read m c t _ r hrow, Blocks.feat1_read m c t _ r hrow,
    weights1_read m c t _ (0 : Fin 2) q rfl hcol, weights1_read m c t _ (1 : Fin 2) q rfl hcol, bias1_read m c t _ q hcol,
    weights2_read m c t _ (0 : Fin 2) q rfl hcol, weights2_read m c t _ (1 : Fin 2) q rfl hcol, bias2_read m c t _ q hcol,
    weights3_read m c t _ (0 : Fin 2) q rfl hcol, weights3_read m c t _ (1 : Fin 2) q rfl hcol, bias3_read m c t _ q hcol]
  rfl

/-! ## The blocks written back cover the result -/

/-- The cut, decided over the 123 points: a block keeps min 8192 (1000000 − t·8192) of its rows and all 128 channels. -/
theorem kept_extent : ∀ t : Fin cfg0.N,
    win0_9.xsize (grid0.coords t) (0 : Fin 2) = min 8192 (1000000 - t.val * 8192)
    ∧ win0_9.xsize (grid0.coords t) (1 : Fin 2) = 128 :=
  (by decide +kernel : ∀ t : Fin grid0.N, _)

/-- An index of the result is in point `t`'s block iff each coordinate is in the block's kept range on its axis. -/
theorem mem_block (t : Fin cfg0.N) (i : S1000000x128.Idx) :
    i ∈ ((cfg0.win 9).blk t).view.set ↔ ∀ a : Fin 2, win0_9.index t a * S8192x128.size a ≤ (i a).val
      ∧ (i a).val < win0_9.index t a * S8192x128.size a + win0_9.xsize (grid0.coords t) a := by
  show i ∈ ((View.whole main_v7).slice (win0_9.rect t)).set ↔ _
  rw [View.set_slice_whole, Rect.mem_set_unit]
  exact Iff.rfl

/-- Every index of the result is in the block some point writes back: row `r` in the block of point r / 8192. -/
theorem covered (i : S1000000x128.Idx) :
    ∃ t : Fin cfg0.N, (cfg0.win 9).flush t = true ∧ i ∈ ((cfg0.win 9).blk t).view.set := by
  have hi0 : (i 0).val < 1000000 := (i 0).isLt
  have hi1 : (i 1).val < 128 := (i 1).isLt
  have hN : cfg0.N = 123 := N_0
  refine ⟨⟨(i 0).val / 8192, by omega⟩, flush0_9 _, ?_⟩
  rw [mem_block]
  obtain ⟨-, -, -, -, -, -, -, -, -, -, -, -, e0, e1⟩ := Blocks.index_maps ⟨(i 0).val / 8192, by omega⟩
  obtain ⟨k0, k1⟩ := kept_extent ⟨(i 0).val / 8192, by omega⟩
  intro a
  match a with
  | ⟨0, _⟩ =>
    show win0_9.index ⟨(i 0).val / 8192, _⟩ (0 : Fin 2) * 8192 ≤ (i 0).val
      ∧ (i 0).val < win0_9.index ⟨(i 0).val / 8192, _⟩ (0 : Fin 2) * 8192 + win0_9.xsize (grid0.coords ⟨(i 0).val / 8192, _⟩) (0 : Fin 2)
    rw [e0, k0]
    show (i 0).val / 8192 * 8192 ≤ (i 0).val ∧ (i 0).val < (i 0).val / 8192 * 8192 + min 8192 (1000000 - (i 0).val / 8192 * 8192)
    omega
  | ⟨1, _⟩ =>
    show win0_9.index ⟨(i 0).val / 8192, _⟩ (1 : Fin 2) * 128 ≤ (i 1).val
      ∧ (i 1).val < win0_9.index ⟨(i 0).val / 8192, _⟩ (1 : Fin 2) * 128 + win0_9.xsize (grid0.coords ⟨(i 0).val / 8192, _⟩) (1 : Fin 2)
    rw [e1, k1]
    omega

/-! ## The result array, and the run -/

/-- THE RESULT ARRAY after the run is the embedding of the argument arrays. -/
theorem final (c : Dev nD) : (dats m 0 c).arrAt 9 cfg0.N = result m c :=
  (dats m 0 c).arrAt_eq_of_cover 9 (result m c) (fun t _ => written_back m c t) covered

/-- Every weakly fair execution of the kernel's program terminates with the result array at the embedding of the
    argument arrays, and the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Embedding

end
-- ==== Proof.ReferenceValue.lean ====
/-
  The reference computes the bus embedding the other way round. For each of the three bus types it forms the whole
  [1000000, 128] product of the features with the type's weights — at (r, q) the sum over the two features of
  feat[r, k] · W[k, q] — adds the bias along the channels, and applies `tanh`; then it routes: row `r` takes the first
  array where bus `r` has type 1, else the second where it has type 2, else the third where it has type 3, else 0.
  Read at an index (r, q), stage by stage, that is the "squash, then route" arrangement of the element function at
  the type and features of bus `r` and channel `q` of the weights and biases: the embedding.
-/
import proofs.«169179_j20873541059064_2_alg».proof.Proof.Gen.ReferenceIdeal.Read
import proofs.«169179_j20873541059064_2_alg».proof.Proof.BusEmbedSpec

noncomputable section

namespace Cert.ReferenceIdeal.Embedding

open Cert.ReferenceIdeal Cert.ReferenceIdeal.Gen Cert.ReferenceIdeal.Read
open Idealize.ShloMosaic Idealize.ShloMosaic.TcCoe Idealize.SL.Sem Idealize.ShloMosaic.ValueIdx

/-! ## Where each stage reads its operands: row `i 0` of the per-bus arrays, channel `i 1` of the per-type ones -/

theorem row_type1 (i : S1000000x128.Idx) : idx_main_v15 (idx_main_call2_v0 i) = ix1 (i 0) :=
  funext fun a => Fin.ext (by match a with | ⟨0, _⟩ => rfl)
theorem row_type2 (i : S1000000x128.Idx) : idx_main_v15 (idx_main_call1_v0 i) = ix1 (i 0) :=
  funext fun a => Fin.ext (by match a with | ⟨0, _⟩ => rfl)
theorem row_type3 (i : S1000000x128.Idx) : idx_main_v15 (idx_main_call0_v0 i) = ix1 (i 0) :=
  funext fun a => Fin.ext (by match a with | ⟨0, _⟩ => rfl)

theorem feat1_at (i : S1000000x128.Idx) (k : Fin 2) : lidx_main_v0 i k = ix2 (i 0) k :=
  funext fun a => Fin.ext (by match a with | ⟨0, _⟩ => rfl | ⟨1, _⟩ => rfl)
theorem feat2_at (i : S1000000x128.Idx) (k : Fin 2) : lidx_main_v5 i k = ix2 (i 0) k :=
  funext fun a => Fin.ext (by match a with | ⟨0, _⟩ => rfl | ⟨1, _⟩ => rfl)
theorem feat3_at (i : S1000000x128.Idx) (k : Fin 2) : lidx_main_v10 i k = ix2 (i 0) k :=
  funext fun a => Fin.ext (by match a with | ⟨0, _⟩ => rfl | ⟨1, _⟩ => rfl)

theorem weight1_at (i : S1000000x128.Idx) (k : Fin 2) : ridx_main_v0 i k = ix2 k (i 1) :=
  funext fun a => Fin.ext (by match a with | ⟨0, _⟩ => rfl | ⟨1, _⟩ => rfl)
theorem weight2_at (i : S1000000x128.Idx) (k : Fin 2) : ridx_main_v5 i k = ix2 k (i 1) :=
  funext fun a => Fin.ext (by match a with | ⟨0, _⟩ => rfl | ⟨1, _⟩ => rfl)
theorem weight3_at (i : S1000000x128.Idx) (k : Fin 2) : ridx_main_v10 i k = ix2 k (i 1) :=
  funext fun a => Fin.ext (by match a with | ⟨0, _⟩ => rfl | ⟨1, _⟩ => rfl)

theorem bias1_at (i : S1000000x128.Idx) : idx_main_v1 (idx_main_v2 i) = ix1 (i 1) :=
  funext fun a => Fin.ext (by match a with | ⟨0, _⟩ => rfl)
theorem bias2_at (i : S1000000x128.Idx) : idx_main_v6 (idx_main_v7 i) = ix1 (i 1) :=
  funext fun a => Fin.ext (by match a with | ⟨0, _⟩ => rfl)
theorem bias3_at (i : S1000000x128.Idx) : idx_main_v11 (idx_main_v12 i) = ix1 (i 1) :=
  funext fun a => Fin.ext (by match a with | ⟨0, _⟩ => rfl)

/-- THE REFERENCE'S RESULT, as a function of its eight arguments, is the embedding. -/
theorem stage_is_embedding
    (x0 : (⟨S1000000x2, .f32⟩ : BufTy).Contents (Elt Ideal)) (x1 : (⟨S1000000, .i32⟩ : BufTy).Contents (Elt Ideal))
    (x2 : (⟨S2x128, .f32⟩ : BufTy).Contents (Elt Ideal)) (x3 : (⟨S128, .f32⟩ : BufTy).Contents (Elt Ideal))
    (x4 : (⟨S2x128, .f32⟩ : BufTy).Contents (Elt Ideal)) (x5 : (⟨S128, .f32⟩ : BufTy).Contents (Elt Ideal))
    (x6 : (⟨S2x128, .f32⟩ : BufTy).Contents (Elt Ideal)) (x7 : (⟨S128, .f32⟩ : BufTy).Contents (Elt Ideal)) :
    val_main_v24 (F := Ideal) x0 x1 x2 x3 x4 x5 x6 x7 = Cert.BusEmbed.embed x0 x1 x2 x3 x4 x5 x6 x7 := by
  funext i
  simp only [val_main_v24_apply, val_main_call2_v0_apply, val_main_v17_apply, val_main_v15_apply, val_main_v16_apply, val_main_c_apply,
    val_main_v4_apply, val_main_v3_apply, val_main_v0_apply, val_main_v2_apply, val_main_v1_apply,
    val_main_v23_apply, val_main_call1_v0_apply, val_main_v19_apply, val_main_v18_apply, val_main_c_0_apply,
    val_main_v9_apply, val_main_v8_apply, val_main_v5_apply, val_main_v7_apply, val_main_v6_apply,
    val_main_v22_apply, val_main_call0_v0_apply, val_main_v21_apply, val_main_v20_apply, val_main_c_1_apply,
    val_main_v14_apply, val_main_v13_apply, val_main_v10_apply, val_main_v12_apply, val_main_v11_apply,
    val_main_call0_v1_apply, val_main_cst_apply,
    row_type1, row_type2, row_type3, feat1_at, feat2_at, feat3_at, weight1_at, weight2_at, weight3_at,
    bias1_at, bias2_at, bias3_at]
  exact Cert.BusEmbed.squash_then_route (x1 (ix1 (i 0))) (fun k => x0 (ix2 (i 0) k))
    (fun k => x2 (ix2 k (i 1))) (fun k => x4 (ix2 k (i 1))) (fun k => x6 (ix2 k (i 1)))
    (x3 (ix1 (i 1))) (x5 (ix1 (i 1))) (x7 (ix1 (i 1)))

end Cert.ReferenceIdeal.Embedding

end
-- ==== Proof.lean ====
/-
  The bus embedding: a streaming kernel against its array-at-a-time reference, equal on the extended reals.

  Both programs take a [1000000, 2] matrix of bus features, a [1000000] vector of integer bus types, and for each of the
  three types 1, 2, 3 a [2, 128] weight matrix and a [128] bias. Row `r`, channel `q` of the [1000000, 128] result is
  `tanh (f0·W[0,q] + f1·W[1,q] + b[q])` for the weights and bias of bus `r`'s own type, and `0` when its type is none of
  the three (Proof/BusEmbedSpec.lean: `cell`, `embed`).

  The kernel first cuts the feature matrix into its two columns and extends them, and the types, with zeros to 123 · 8192
  entries (Proof/EntryContents.lean); then, 8192 rows at a time, it routes between the three affine maps by the row's
  type and applies `tanh` once (Proof/BlockReads.lean, Proof/KernelValue.lean: what a grid point writes back is its
  block of the embedding, the last block cut at the result's end, and the blocks cover the result). The reference forms
  all three `tanh`-ed products over the whole arrays and routes afterwards (Proof/ReferenceValue.lean). The two
  arrangements agree because `tanh` commutes with a choice between two values and `tanh 0 = 0`, and because a sum over
  the two features is the sum of its two terms; commutativity and associativity of + and · are not even used, and no
  law here needs the entries to be finite, so the precondition is never opened.

  The claims: each program runs and leaves its arguments unchanged (the kernel's two instances by their generated frame
  certificates, the reference by its generated run); the idealized kernel is the kernel's own text read at the ideal
  values, no operation rewritten, so there is nothing to preserve; and the two idealized programs end with equal results.
-/
import proofs.«169179_j20873541059064_2_alg».proof.Defs
import proofs.«169179_j20873541059064_2_alg».proof.Proof.Gen.Kernel
import proofs.«169179_j20873541059064_2_alg».proof.Proof.Gen.Kernel.Frame
import proofs.«169179_j20873541059064_2_alg».proof.Proof.Gen.KernelIdeal
import proofs.«169179_j20873541059064_2_alg».proof.Proof.Gen.KernelIdeal.Frame
import proofs.«169179_j20873541059064_2_alg».proof.Proof.Gen.KernelIdeal.Value
import proofs.«169179_j20873541059064_2_alg».proof.Proof.Gen.ReferenceIdeal
import proofs.«169179_j20873541059064_2_alg».proof.Proof.Gen.ReferenceIdeal.Run
import proofs.«169179_j20873541059064_2_alg».proof.Proof.Gen.ReferenceIdeal.Read
import proofs.«169179_j20873541059064_2_alg».proof.Proof.Gen.Pre_finite_inputs
import proofs.«169179_j20873541059064_2_alg».proof.Proof.KernelValue
import proofs.«169179_j20873541059064_2_alg».proof.Proof.ReferenceValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories agreeing on the eight arguments both programs end with the result array at the embedding of those
    arguments: the kernel by what its blocks write back, the reference by its stages read at an index. -/
theorem algebraic : Cert.algebraic_KernelIdeal_ReferenceIdeal := by
  intro m ρ m' ρ' _ hagree
  refine ⟨fun c => Cert.KernelIdeal.Embedding.result m c, Cert.KernelIdeal.Embedding.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v24_eq, Cert.ReferenceIdeal.Embedding.stage_is_embedding, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
